-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x64x512 : Shape := ⟨3, ![4, 64, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S1024x1024 .f32) (main_arg7 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S4x256x512 .f32) (main_arg1 : FVec F S4x64x512 .f32) (main_arg2 : FVec F S512x512 .f32) (main_arg3 : FVec F S512 .f32) (main_arg4 : FVec F S512x512 .f32) (main_arg5 : FVec F S512 .f32) (main_arg6 : FVec F S1024x1024 .f32) (main_arg7 : FVec F S1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x64x512 .f32 := Host.absf main_arg1
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S4x256x512 : Shape := ⟨3, ![4, 256, 512]⟩
abbrev S4x64x512 : Shape := ⟨3, ![4, 64, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S512x1024 : Shape := ⟨2, ![512, 1024]⟩
abbrev S1x512 : Shape := ⟨2, ![1, 512]⟩
abbrev S1x1024 : Shape := ⟨2, ![1, 1024]⟩
abbrev S4x256x64x1024 : Shape := ⟨4, ![4, 256, 64, 1024]⟩
abbrev S1x32x512 : Shape := ⟨3, ![1, 32, 512]⟩
abbrev S1x64x512 : Shape := ⟨3, ![1, 64, 512]⟩
abbrev S1x32x64x1024 : Shape := ⟨4, ![1, 32, 64, 1024]⟩
abbrev S1x64x1024 : Shape := ⟨3, ![1, 64, 1024]⟩
abbrev S64x512 : Shape := ⟨2, ![64, 512]⟩
abbrev S64x1024 : Shape := ⟨2, ![64, 1024]⟩
abbrev S32x512 : Shape := ⟨2, ![32, 512]⟩
abbrev S32x1024 : Shape := ⟨2, ![32, 1024]⟩
abbrev S32x1x1024 : Shape := ⟨3, ![32, 1, 1024]⟩
abbrev S32x64x1024 : Shape := ⟨3, ![32, 64, 1024]⟩

abbrev nBuf : Space → Nat
  | .hbm => 18
  | .vmem => 14
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S512x1024, .f32⟩
  | .hbm, ⟨9, _⟩ => ⟨S512x1024, .bf16⟩
  | .hbm, ⟨10, _⟩ => ⟨S512x1024, .f32⟩
  | .hbm, ⟨11, _⟩ => ⟨S512x1024, .bf16⟩
  | .hbm, ⟨12, _⟩ => ⟨S512x512, .bf16⟩
  | .hbm, ⟨13, _⟩ => ⟨S512x512, .bf16⟩
  | .hbm, ⟨14, _⟩ => ⟨S1x512, .f32⟩
  | .hbm, ⟨15, _⟩ => ⟨S1x512, .f32⟩
  | .hbm, ⟨16, _⟩ => ⟨S1x1024, .f32⟩
  | .hbm, ⟨17, _⟩ => ⟨S4x256x64x1024, .f32⟩
  | .local _ .vmem, ⟨0, _⟩ => ⟨S1x32x512, .f32⟩
  | .local _ .vmem, ⟨1, _⟩ => ⟨S1x32x512, .f32⟩
  | .local _ .vmem, ⟨2, _⟩ => ⟨S512x512, .bf16⟩
  | .local _ .vmem, ⟨3, _⟩ => ⟨S1x512, .f32⟩
  | .local _ .vmem, ⟨4, _⟩ => ⟨S512x1024, .bf16⟩
  | .local _ .vmem, ⟨5, _⟩ => ⟨S1x64x512, .f32⟩
  | .local _ .vmem, ⟨6, _⟩ => ⟨S1x64x512, .f32⟩
  | .local _ .vmem, ⟨7, _⟩ => ⟨S512x512, .bf16⟩
  | .local _ .vmem, ⟨8, _⟩ => ⟨S1x512, .f32⟩
  | .local _ .vmem, ⟨9, _⟩ => ⟨S512x1024, .bf16⟩
  | .local _ .vmem, ⟨10, _⟩ => ⟨S1x1024, .f32⟩
  | .local _ .vmem, ⟨11, _⟩ => ⟨S1x32x64x1024, .f32⟩
  | .local _ .vmem, ⟨12, _⟩ => ⟨S1x32x64x1024, .f32⟩
  | .local _ .vmem, ⟨13, _⟩ => ⟨S1x64x1024, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x32x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  slices_S1024x1024_S512x1024_0_0 : S1024x1024.Slices ![0, 0] S512x1024
  bitsLt_bf16_f32 : FTy.bits .bf16 < FTy.bits .f32
  slices_S1024x1024_S512x1024_512_0 : S1024x1024.Slices ![512, 0] S512x1024
  shapeCasts_S512_S1x512 : S512.ShapeCasts S1x512
  shapeCasts_S1024_S1x1024 : S1024.ShapeCasts S1x1024
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  broadcasts_S1x512_S32x512 : S1x512.Broadcasts S32x512
  shapeCasts_S32x1024_S32x1x1024 : S32x1024.ShapeCasts S32x1x1024
  broadcasts_S32x1x1024_S32x64x1024 : S32x1x1024.Broadcasts S32x64x1024
  broadcasts_S1x64x1024_S32x64x1024 : S1x64x1024.Broadcasts S32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  shapeCasts_S1x32x64x1024_S32x64x1024 : S1x32x64x1024.ShapeCasts S32x64x1024
  shapeCasts_S32x64x1024_S1x32x64x1024 : S32x64x1024.ShapeCasts S1x32x64x1024
  dot_S64x512_S512x512_S64x512_1_0_0_1_n_n_wf : DotDims.WF S64x512 S512x512 S64x512 [1] [0] [0] [1] [] []
  dot_S64x512_S512x1024_S64x1024_1_0_0_1_n_n_wf : DotDims.WF S64x512 S512x1024 S64x1024 [1] [0] [0] [1] [] []
  dot_S32x512_S512x512_S32x512_1_0_0_1_n_n_wf : DotDims.WF S32x512 S512x512 S32x512 [1] [0] [0] [1] [] []
  dot_S32x512_S512x1024_S32x1024_1_0_0_1_n_n_wf : DotDims.WF S32x512 S512x1024 S32x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S4x256x512.size a
  hwx0_0 : ∀ i : grid0.Coords, EltTy.bits .f32 = 32 ∨ (Rect.block (s := S4x256x512) S1x32x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x512.size a ≤ S4x64x512.size a
  hwx0_4 : ∀ i : grid0.Coords, EltTy.bits .f32 = 32 ∨ (Rect.block (s := S4x64x512) S1x64x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S512x1024.size a
  hwx0_7 : ∀ i : grid0.Coords, EltTy.bits .bf16 = 32 ∨ (Rect.block (s := S512x1024) S512x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x32x64x1024.size a ≤ S4x256x64x1024.size a
  hwx0_9 : ∀ i : grid0.Coords, EltTy.bits .f32 = 32 ∨ (Rect.block (s := S4x256x64x1024) S1x32x64x1024.size (cc0_transform_9 i) (hinb0_9 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S32x512_S512x1024_S32x1024_1_0_0_1_n_n : DotDims S32x512 S512x1024 S32x1024 where
  lhsContracting := [1]
  rhsContracting := [0]
  lhsNonContracting := [0]
  rhsNonContracting := [1]
  lhsBatch := []
  rhsBatch := []
  wf := dot_S32x512_S512x1024_S32x1024_1_0_0_1_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x64x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x32x64x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x256x512 : Shape := ⟨3, ![4, 256, 512]⟩
abbrev S4x64x512 : Shape := ⟨3, ![4, 64, 512]⟩
abbrev S512x512 : Shape := ⟨2, ![512, 512]⟩
abbrev S512 : Shape := ⟨1, ![512]⟩
abbrev S1024x1024 : Shape := ⟨2, ![1024, 1024]⟩
abbrev S1024 : Shape := ⟨1, ![1024]⟩
abbrev S1x1x512 : Shape := ⟨3, ![1, 1, 512]⟩
abbrev S4x256x1x512 : Shape := ⟨4, ![4, 256, 1, 512]⟩
abbrev S4x256x64x512 : Shape := ⟨4, ![4, 256, 64, 512]⟩
abbrev S4x1x64x512 : Shape := ⟨4, ![4, 1, 64, 512]⟩
abbrev S4x256x64x1024 : Shape := ⟨4, ![4, 256, 64, 1024]⟩
abbrev S1x1x1x1024 : Shape := ⟨4, ![1, 1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1024x1024, .f32⟩
  | .hbm, ⟨7, _⟩ => ⟨S1024, .f32⟩
  | .hbm, ⟨8, _⟩ => ⟨S4x256x512, .f32⟩
  | .hbm, ⟨9, _⟩ => ⟨S1x1x512, .f32⟩
  | .hbm, ⟨10, _⟩ => ⟨S4x256x512, .f32⟩
  | .hbm, ⟨11, _⟩ => ⟨S4x256x512, .f32⟩
  | .hbm, ⟨12, _⟩ => ⟨S4x64x512, .f32⟩
  | .hbm, ⟨13, _⟩ => ⟨S1x1x512, .f32⟩
  | .hbm, ⟨14, _⟩ => ⟨S4x64x512, .f32⟩
  | .hbm, ⟨15, _⟩ => ⟨S4x64x512, .f32⟩
  | .hbm, ⟨16, _⟩ => ⟨S4x256x1x512, .f32⟩
  | .hbm, ⟨17, _⟩ => ⟨S4x256x64x512, .f32⟩
  | .hbm, ⟨18, _⟩ => ⟨S4x1x64x512, .f32⟩
  | .hbm, ⟨19, _⟩ => ⟨S4x256x64x512, .f32⟩
  | .hbm, ⟨20, _⟩ => ⟨S4x256x64x1024, .f32⟩
  | .hbm, ⟨21, _⟩ => ⟨S4x256x64x1024, .f32⟩
  | .hbm, ⟨22, _⟩ => ⟨S4x256x64x1024, .f32⟩
  | .hbm, ⟨23, _⟩ => ⟨S1x1x1x1024, .f32⟩
  | .hbm, ⟨24, _⟩ => ⟨S4x256x64x1024, .f32⟩
  | .hbm, ⟨25, _⟩ => ⟨S4x256x64x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x256x512_0_1_2 : S1x1x512.BroadcastsInDim S4x256x512 (![0, 1, 2] : Fin 3 → Fin S4x256x512.rank)
  bcast_S1x1x512_S4x64x512_0_1_2 : S1x1x512.BroadcastsInDim S4x64x512 (![0, 1, 2] : Fin 3 → Fin S4x64x512.rank)
  bcast_S4x256x512_S4x256x1x512_0_1_3 : S4x256x512.BroadcastsInDim S4x256x1x512 (![0, 1, 3] : Fin 3 → Fin S4x256x1x512.rank)
  bcast_S4x256x1x512_S4x256x64x512_0_1_2_3 : S4x256x1x512.BroadcastsInDim S4x256x64x512 (![0, 1, 2, 3] : Fin 4 → Fin S4x256x64x512.rank)
  bcast_S4x64x512_S4x1x64x512_0_2_3 : S4x64x512.BroadcastsInDim S4x1x64x512 (![0, 2, 3] : Fin 3 → Fin S4x1x64x512.rank)
  bcast_S4x1x64x512_S4x256x64x512_0_1_2_3 : S4x1x64x512.BroadcastsInDim S4x256x64x512 (![0, 1, 2, 3] : Fin 4 → Fin S4x256x64x512.rank)
  concatenates_S4x256x64x512_S4x256x64x512_S4x256x64x1024_d3 : Shape.Concatenates [S4x256x64x512, S4x256x64x512] S4x256x64x1024 3
  bcast_S1024_S1x1x1x1024_3 : S1024.BroadcastsInDim S1x1x1x1024 (![3] : Fin 1 → Fin S1x1x1x1024.rank)
  bcast_S1x1x1x1024_S4x256x64x1024_0_1_2_3 : S1x1x1x1024.BroadcastsInDim S4x256x64x1024 (![0, 1, 2, 3] : Fin 4 → Fin S4x256x64x1024.rank)
  dot_S4x256x512_S512x512_S4x256x512_2_0_01_1_n_n_wf : DotDims.WF S4x256x512 S512x512 S4x256x512 [2] [0] [0, 1] [1] [] []
  dot_S4x64x512_S512x512_S4x64x512_2_0_01_1_n_n_wf : DotDims.WF S4x64x512 S512x512 S4x64x512 [2] [0] [0, 1] [1] [] []
  dot_S4x256x64x1024_S1024x1024_S4x256x64x1024_3_0_012_1_n_n_wf : DotDims.WF S4x256x64x1024 S1024x1024 S4x256x64x1024 [3] [0] [0, 1, 2] [1] [] []

variable [Facts₀]

def dot_S4x256x512_S512x512_S4x256x512_2_0_01_1_n_n : DotDims S4x256x512 S512x512 S4x256x512 where
  lhsContracting := [2]
  rhsContracting := [0]
  lhsNonContracting := [0, 1]
  rhsNonContracting := [1]
  lhsBatch := []
  rhsBatch := []
  wf := dot_S4x256x512_S512x512_S4x256x512_2_0_01_1_n_n_wf
def dot_S4x64x512_S512x512_S4x64x512_2_0_01_1_n_n : DotDims S4x64x512 S512x512 S4x64x512 where
  lhsContracting := [2]
  rhsContracting := [0]
  lhsNonContracting := [0, 1]
  rhsNonContracting := [1]
  lhsBatch := []
  rhsBatch := []
  wf := dot_S4x64x512_S512x512_S4x64x512_2_0_01_1_n_n_wf
def dot_S4x256x64x1024_S1024x1024_S4x256x64x1024_3_0_012_1_n_n : DotDims S4x256x64x1024 S1024x1024 S4x256x64x1024 where
  lhsContracting := [3]
  rhsContracting := [0]
  lhsNonContracting := [0, 1, 2]
  rhsNonContracting := [1]
  lhsBatch := []
  rhsBatch := []
  wf := dot_S4x256x64x1024_S1024x1024_S4x256x64x1024_3_0_012_1_n_n_wf

class Facts : Prop extends Facts₀ where

variable [Facts]
-- ==== Proof.Pieces.lean ====
/-
  What one run of the body leaves behind, as values of what it loaded.

  At the first point of a batch entry (case A) the body stores the kept slab into the scratch, reads it back, and
  stores the output block computed from it: the scratch ends at the kept slab of the decoder-side blocks, the output
  buffer at the output block of the encoder-side blocks and that slab. At every other point (case B) the scratch is
  only read: it keeps what it held, and the output buffer ends at the output block of the encoder-side blocks and
  what the scratch held. Each buffer is written by one store covering it whole, and each load reads a whole buffer,
  so the pieces read back are exactly the stored values of the loaded contents.
-/
import proofs.«116106_j21492016349402_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Case B, the output buffer: the output block of the four encoder-side blocks and the scratch's contents. -/
theorem out_B (c : Dev nD) (i : grid0.Coords) (arg2 : Memref sig .tc .vmem S1x32x512 .f32) (harg2 : arg2.IsWhole) (arg3 : Memref sig .tc .vmem S512x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x64x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S1x32x64x1024 .f32) (harg11 : arg11.IsWhole) (arg12 : Memref sig .tc .vmem S1x64x1024 .f32) (harg12 : arg12.IsWhole) (hc0 : ¬cond0_0 i) (x0 : Vec F S1x32x512 .f32) (x1 : Vec F S512x512 .bf16) (x2 : Vec F S1x512 .f32) (x3 : Vec F S512x1024 .bf16) (x4 : Vec F S1x64x512 .f32) (x5 : Vec F S512x512 .bf16) (x6 : Vec F S1x512 .f32) (x7 : Vec F S512x1024 .bf16) (x8 : Vec F S1x1024 .f32) (xs0 : Vec F S1x64x1024 .f32) :
    out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xs0 = k0_pay2 x0 x1 x2 x3 xs0 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xs0)]
  unfold kernelRun0_B
  dsimp only
  rw [View.canon_unit_zero hz4]
  simp only [View.readAt_eq_ld, harg2.read_unread, harg3.read_unread, harg4.read_unread, harg5.read_unread, harg12.read_unread,
    View.ld_unit_zero (S := S1x32x512) hz3, View.ld_unit_zero (S := S512x512) hz2, View.ld_unit_zero (S := S1x512) hz2,
    View.ld_unit_zero (S := S512x1024) hz2, View.ld_unit_zero (S := S1x64x1024) hz3]

/-- Case A, the scratch: the kept slab of the five decoder-side blocks. -/
theorem sout_A (c : Dev nD) (i : grid0.Coords) (arg2 : Memref sig .tc .vmem S1x32x512 .f32) (harg2 : arg2.IsWhole) (arg3 : Memref sig .tc .vmem S512x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x64x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S1x32x64x1024 .f32) (harg11 : arg11.IsWhole) (arg12 : Memref sig .tc .vmem S1x64x1024 .f32) (harg12 : arg12.IsWhole) (hc0 : cond0_0 i) (x0 : Vec F S1x32x512 .f32) (x1 : Vec F S512x512 .bf16) (x2 : Vec F S1x512 .f32) (x3 : Vec F S512x1024 .bf16) (x4 : Vec F S1x64x512 .f32) (x5 : Vec F S512x512 .bf16) (x6 : Vec F S1x512 .f32) (x7 : Vec F S512x1024 .bf16) (x8 : Vec F S1x1024 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 x8 = k0_pay1 x4 x5 x6 x7 x8 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  rw [View.canon_unit_zero hz3]
  simp only [View.readAt_eq_ld, harg6.read_unread, harg7.read_unread, harg8.read_unread, harg9.read_unread, harg10.read_unread,
    View.ld_unit_zero (S := S1x64x512) hz3, View.ld_unit_zero (S := S512x512) hz2, View.ld_unit_zero (S := S1x512) hz2,
    View.ld_unit_zero (S := S512x1024) hz2, View.ld_unit_zero (S := S1x1024) hz2]

/-- Case A, the output buffer: the output block of the four encoder-side blocks and the slab just stored. -/
theorem out_A (c : Dev nD) (i : grid0.Coords) (arg2 : Memref sig .tc .vmem S1x32x512 .f32) (harg2 : arg2.IsWhole) (arg3 : Memref sig .tc .vmem S512x512 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x64x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x1024 .bf16) (harg9 : arg9.IsWhole) (arg10 : Memref sig .tc .vmem S1x1024 .f32) (harg10 : arg10.IsWhole) (arg11 : Memref sig .tc .vmem S1x32x64x1024 .f32) (harg11 : arg11.IsWhole) (arg12 : Memref sig .tc .vmem S1x64x1024 .f32) (harg12 : arg12.IsWhole) (hc0 : cond0_0 i) (x0 : Vec F S1x32x512 .f32) (x1 : Vec F S512x512 .bf16) (x2 : Vec F S1x512 .f32) (x3 : Vec F S512x1024 .bf16) (x4 : Vec F S1x64x512 .f32) (x5 : Vec F S512x512 .bf16) (x6 : Vec F S1x512 .f32) (x7 : Vec F S512x1024 .bf16) (x8 : Vec F S1x1024 .f32) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8 = k0_pay2 x0 x1 x2 x3 (k0_pay1 x4 x5 x6 x7 x8) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  rw [View.canon_unit_zero hz4, View.readCov_unit_zero (S := S1x64x1024) _ hz3]
  simp only [View.readAt_eq_ld, harg2.read_unread, harg3.read_unread, harg4.read_unread, harg5.read_unread,
    harg6.read_unread, harg7.read_unread, harg8.read_unread, harg9.read_unread, harg10.read_unread,
    View.ld_unit_zero (S := S1x32x512) hz3, View.ld_unit_zero (S := S512x512) hz2, View.ld_unit_zero (S := S1x512) hz2,
    View.ld_unit_zero (S := S512x1024) hz2, View.ld_unit_zero (S := S1x64x512) hz3, View.ld_unit_zero (S := S1x1024) hz2]

end Cert.KernelIdeal.Pieces

end
-- ==== Proof.JointSpec.lean ====
/-
  The joint network's output as one function of its arrays, entry by entry, on the extended reals.

  A hidden feature is a length-512 row through one column of a 512 x 512 weight matrix plus that column's bias;
  a projected entry is the sum over the 512 hidden features of tanh (feature) times one column of a 512 x 1024
  matrix. The output at (b, t, u, v) is the encoder row (b, t) projected through the UPPER half of the joint
  weights plus the decoder row (b, u) projected through the LOWER half plus the joint bias:

      out (b, t, u, v) = proj (f b t) + (proj (g b u) + bj v).

  The other arrangement joins the two rows of hidden features into one row of 1024, applies tanh to it, takes ONE sum
  over the 1024 positions against the whole joint matrix, and adds the bias last. The two agree because a sum over
  1024 positions is the sum over its first 512 plus the sum over its last 512, and addition of extended reals is
  associative: neither step asks the terms to be finite.
-/
import Idealize.ShloMosaic.PureOps.Ideal
import Idealize.ShloMosaic.Lib.ValueIdx

noncomputable section

namespace Cert.JointSpec

open Idealize.ShloMosaic Idealize.ShloMosaic.ValueIdx
open scoped BigOperators

/-- Hidden feature `c` of a row `x`: the row through column `c` of `W`, plus the bias row's entry `c`. -/
def hidden (x : Fin 512 → EReal) (W : (⟨2, ![512, 512]⟩ : Shape).Idx → EReal)
    (bias : (⟨2, ![1, 512]⟩ : Shape).Idx → EReal) (c : Fin 512) : EReal :=
  (∑ d : Fin 512, x d * W (ix2 d c)) + bias (ix2 (0 : Fin 1) c)

/-- Projected entry `v` of a row `x`: tanh of its hidden features through column `v` of `Q`. -/
def proj (x : Fin 512 → EReal) (W : (⟨2, ![512, 512]⟩ : Shape).Idx → EReal)
    (bias : (⟨2, ![1, 512]⟩ : Shape).Idx → EReal) (Q : (⟨2, ![512, 1024]⟩ : Shape).Idx → EReal) (v : Fin 1024) : EReal :=
  ∑ c : Fin 512, Ideal.tanh (hidden x W bias c) * Q (ix2 c v)

/-- The decoder's projected row with the joint bias added: what is computed once per batch entry and kept. -/
def kept (g : (⟨3, ![4, 64, 512]⟩ : Shape).Idx → EReal) (Wd : (⟨2, ![512, 512]⟩ : Shape).Idx → EReal)
    (bd : (⟨2, ![1, 512]⟩ : Shape).Idx → EReal) (Qd : (⟨2, ![512, 1024]⟩ : Shape).Idx → EReal)
    (bj : (⟨2, ![1, 1024]⟩ : Shape).Idx → EReal) (b : Fin 4) (u : Fin 64) (v : Fin 1024) : EReal :=
  proj (fun d => g (ix3 b u d)) Wd bd Qd v + bj (ix2 (0 : Fin 1) v)

/-- The output array: encoder row (b, t) projected, plus the kept decoder row (b, u). -/
def joint (f : (⟨3, ![4, 256, 512]⟩ : Shape).Idx → EReal) (We : (⟨2, ![512, 512]⟩ : Shape).Idx → EReal)
    (be : (⟨2, ![1, 512]⟩ : Shape).Idx → EReal) (Qe : (⟨2, ![512, 1024]⟩ : Shape).Idx → EReal)
    (g : (⟨3, ![4, 64, 512]⟩ : Shape).Idx → EReal) (Wd : (⟨2, ![512, 512]⟩ : Shape).Idx → EReal)
    (bd : (⟨2, ![1, 512]⟩ : Shape).Idx → EReal) (Qd : (⟨2, ![512, 1024]⟩ : Shape).Idx → EReal)
    (bj : (⟨2, ![1, 1024]⟩ : Shape).Idx → EReal) : (⟨4, ![4, 256, 64, 1024]⟩ : Shape).Idx → EReal :=
  fun i => proj (fun d => f (ix3 (i 0) (i 1) d)) We be Qe (i 3) + kept g Wd bd Qd bj (i 0) (i 2) (i 3)

/-- Position `c` of the first half of a row of 1024. -/
abbrev lo (c : Fin 512) : Fin 1024 := ⟨c.val, by omega⟩

/-- Position `c` of the second half of a row of 1024. -/
abbrev hi (c : Fin 512) : Fin 1024 := ⟨512 + c.val, by omega⟩

/-- A vector laid out as a one-row matrix. -/
def asRow {n : ℕ} (x : (⟨1, ![n]⟩ : Shape).Idx → EReal) : (⟨2, ![1, n]⟩ : Shape).Idx → EReal :=
  fun i => x (ix1 (i 1))

/-- The upper half (rows 0 to 511) of the joint weights. -/
def upper (Wj : (⟨2, ![1024, 1024]⟩ : Shape).Idx → EReal) : (⟨2, ![512, 1024]⟩ : Shape).Idx → EReal :=
  fun i => Wj (ix2 (lo (i 0)) (i 1))

/-- The lower half (rows 512 to 1023) of the joint weights. -/
def lower (Wj : (⟨2, ![1024, 1024]⟩ : Shape).Idx → EReal) : (⟨2, ![512, 1024]⟩ : Shape).Idx → EReal :=
  fun i => Wj (ix2 (hi (i 0)) (i 1))

/-- The output as a function of the eight arrays the network is given: the bias vectors as rows, the joint weights
    cut in their two halves. -/
def jointOf (f : (⟨3, ![4, 256, 512]⟩ : Shape).Idx → EReal) (g : (⟨3, ![4, 64, 512]⟩ : Shape).Idx → EReal)
    (We : (⟨2, ![512, 512]⟩ : Shape).Idx → EReal) (be : (⟨1, ![512]⟩ : Shape).Idx → EReal)
    (Wd : (⟨2, ![512, 512]⟩ : Shape).Idx → EReal) (bd : (⟨1, ![512]⟩ : Shape).Idx → EReal)
    (Wj : (⟨2, ![1024, 1024]⟩ : Shape).Idx → EReal) (bj : (⟨1, ![1024]⟩ : Shape).Idx → EReal) :
    (⟨4, ![4, 256, 64, 1024]⟩ : Shape).Idx → EReal :=
  joint f We (asRow be) (upper Wj) g Wd (asRow bd) (lower Wj) (asRow bj)

/-- A sum over 1024 positions is the sum over the first 512 plus the sum over the last 512. -/
theorem sum_halves (h : Fin 1024 → EReal) :
    ∑ k : Fin 1024, h k = (∑ c : Fin 512, h (lo c)) + ∑ c : Fin 512, h (hi c) :=
  Fin.sum_univ_add (a := 512) (b := 512) h

/-- The joined arrangement: one sum over a row of 1024 whose halves are two rows of hidden features, the bias added
    last, is the two half sums with the bias joined to the second. -/
theorem joined_sum (J : Fin 1024 → EReal) (hE hD : Fin 512 → EReal) (col : Fin 1024 → EReal) (z : EReal)
    (hlo : ∀ c, J (lo c) = hE c) (hhi : ∀ c, J (hi c) = hD c) :
    (∑ k : Fin 1024, Ideal.tanh (J k) * col k) + z
      = (∑ c : Fin 512, Ideal.tanh (hE c) * col (lo c)) + ((∑ c : Fin 512, Ideal.tanh (hD c) * col (hi c)) + z) := by
  rw [sum_halves, add_assoc]
  simp only [hlo, hhi]

end Cert.JointSpec

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibOuterAdd.lean ====
/-
  The layout steps of an "outer" addition X[:, None, :] + Y[None, :, :] of an a x c matrix and a b x c matrix into an
  a x b x c array, each read at an index: the matrix cast to [a, 1, c]; an [a, 1, c] array broadcast over the middle
  axis; a [1, b, c] slab broadcast over the leading axis. For any element type and any extents.
-/
import Idealize.ShloMosaic.Lib.Pipeline.Value
import Idealize.ShloMosaic.Lib.ValueIdx

namespace Cert.LibOuterAdd

open Idealize.ShloMosaic Idealize.ShloMosaic.ValueIdx

variable {α : Type}

/-- An `[a, c]` matrix cast to `[a, 1, c]` reads, at `(i, u, k)`, the matrix at `(i, k)`, whatever the unit coordinate. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` slab broadcast to `[a, b, c]` reads, at `(i, j, k)`, the slab at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibOuterAdd
-- ==== Proof.Payloads.lean ====
/-
  The two values the kernel body stores, read at an index on the extended reals.

  The kept slab (stored once per batch entry into the carried scratch): from a 64-row block of decoder rows, the
  512 x 512 decoder weights, its bias row, the lower half of the joint weights and the joint bias row, entry (u, v) is

      proj (row u) + bj v        with  proj x = sum over c of tanh (x . W[:, c] + bias c) * Q (c, v).

  The output block (stored at every point): from a 32-row block of encoder rows, the encoder weights and bias, the
  upper half of the joint weights, and whatever the scratch holds, entry (r, u, v) is

      proj (row r) + scratch (u, v).

  On the extended reals a change of float format is the identity, so the roundings to the narrow format in front of
  each matrix product do not show; a matrix product into a zero accumulator is the plain sum over the contracted
  coordinate.
-/
import proofs.«116106_j21492016349402_2_alg».proof.Proof.Gen.KernelIdeal.Skeleton
import proofs.«116106_j21492016349402_2_alg».proof.Proof.JointSpec
import proofs.«116106_j21492016349402_2_alg».proof.Proof.LibDot
import proofs.«116106_j21492016349402_2_alg».proof.Proof.LibOuterAdd
import Idealize.ShloMosaic.Lib.ValueLayout
import Idealize.ShloMosaic.Lib.Pipeline.Value

noncomputable section

namespace Cert.KernelIdeal.Payloads

open Cert.KernelIdeal Cert.KernelIdeal.Gen Idealize.ShloMosaic Idealize.ShloMosaic.ValueIdx
open scoped BigOperators

/-- A block of `m` rows through the 512 x 512 weights (a matrix product into zero) plus the bias row broadcast over
    the rows: entry (p, c) is hidden feature `c` of row `p`. -/
theorem hidden_apply {m : ℕ} (w : DotDims.WF ⟨2, ![m, 512]⟩ ⟨2, ![512, 512]⟩ ⟨2, ![m, 512]⟩ [1] [0] [0] [1] [] [])
    (A : FVec Ideal ⟨2, ![m, 512]⟩ .f32) (W : FVec Ideal ⟨2, ![512, 512]⟩ .bf16) (bias : FVec Ideal ⟨2, ![1, 512]⟩ .f32)
    (hlt : FTy.bits .bf16 < FTy.bits .f32) (hb : (⟨2, ![1, 512]⟩ : Shape).Broadcasts ⟨2, ![m, 512]⟩)
    (p : Fin m) (c : Fin 512) :
    addf (matmul (LibDot.dims w) none (truncf .bf16 A hlt) W (constant (F := Ideal) ⟨2, ![m, 512]⟩ .f32 0x00000000#32))
        (broadcastTo ⟨2, ![m, 512]⟩ bias hb) (ix2 p c)
      = JointSpec.hidden (fun d => A (ix2 p d)) W bias c := by
  rw [addf_apply, LibDot.matmul_zero_apply, broadcastTo_1b_ab_apply]
  rfl

/-- tanh of a block of hidden rows through a 512 x 1024 matrix (a matrix product into zero): entry (p, v) is the sum
    over the hidden features of tanh (feature) times the matrix's entry (c, v). -/
theorem product_apply {m : ℕ} (w : DotDims.WF ⟨2, ![m, 512]⟩ ⟨2, ![512, 1024]⟩ ⟨2, ![m, 1024]⟩ [1] [0] [0] [1] [] [])
    (H : FVec Ideal ⟨2, ![m, 512]⟩ .f32) (Q : FVec Ideal ⟨2, ![512, 1024]⟩ .bf16)
    (hlt : FTy.bits .bf16 < FTy.bits .f32) (p : Fin m) (v : Fin 1024) :
    matmul (LibDot.dims w) none (truncf .bf16 (tanh H) hlt) Q (constant (F := Ideal) ⟨2, ![m, 1024]⟩ .f32 0x00000000#32) (ix2 p v)
      = ∑ c : Fin 512, Ideal.tanh (H (ix2 p c)) * Q (ix2 c v) := by
  rw [LibDot.matmul_zero_apply]
  rfl

/-- The two products in a row: a block of rows to its projected rows. -/
theorem tower_apply {m : ℕ} (w1 : DotDims.WF ⟨2, ![m, 512]⟩ ⟨2, ![512, 512]⟩ ⟨2, ![m, 512]⟩ [1] [0] [0] [1] [] [])
    (w2 : DotDims.WF ⟨2, ![m, 512]⟩ ⟨2, ![512, 1024]⟩ ⟨2, ![m, 1024]⟩ [1] [0] [0] [1] [] [])
    (A : FVec Ideal ⟨2, ![m, 512]⟩ .f32) (W : FVec Ideal ⟨2, ![512, 512]⟩ .bf16) (bias : FVec Ideal ⟨2, ![1, 512]⟩ .f32)
    (Q : FVec Ideal ⟨2, ![512, 1024]⟩ .bf16)
    (hlt : FTy.bits .bf16 < FTy.bits .f32) (hb : (⟨2, ![1, 512]⟩ : Shape).Broadcasts ⟨2, ![m, 512]⟩)
    (p : Fin m) (v : Fin 1024) :
    matmul (LibDot.dims w2) none
        (truncf .bf16 (tanh (addf (matmul (LibDot.dims w1) none (truncf .bf16 A hlt) W (constant (F := Ideal) ⟨2, ![m, 512]⟩ .f32 0x00000000#32))
          (broadcastTo ⟨2, ![m, 512]⟩ bias hb))) hlt)
        Q (constant (F := Ideal) ⟨2, ![m, 1024]⟩ .f32 0x00000000#32) (ix2 p v)
      = JointSpec.proj (fun d => A (ix2 p d)) W bias Q v := by
  rw [product_apply]
  unfold JointSpec.proj
  refine Finset.sum_congr rfl fun c _ => ?_
  rw [hidden_apply]

/-- The kept slab at (u, v): decoder row `u` projected through the lower joint weights, plus the joint bias. -/
theorem pay1_apply (x4 : Vec Ideal S1x64x512 .f32) (x5 : Vec Ideal S512x512 .bf16) (x6 : Vec Ideal S1x512 .f32)
    (x7 : Vec Ideal S512x1024 .bf16) (x8 : Vec Ideal S1x1024 .f32) (z : Fin 1) (u : Fin 64) (v : Fin 1024) :
    k0_pay1 (F := Ideal) x4 x5 x6 x7 x8 (ix3 z u v)
      = JointSpec.proj (fun d => x4 (ix3 (0 : Fin 1) u d)) x5 x6 x7 v + x8 (ix2 (0 : Fin 1) v) := by
  unfold k0_pay1
  refine (shapeCast_ab_1ab_apply _ _ z u v).trans ?_
  refine (addf_apply _ _ _).trans ?_
  refine congrArg₂ (· + ·) ?_ ?_
  · rw [shapeCast_self x5, shapeCast_self x6, shapeCast_self x7]
    refine (tower_apply _ _ _ _ _ _ _ _ u v).trans ?_
    congr 1
    funext d
    exact shapeCast_1ab_ab_apply x4 _ u d
  · refine (broadcastTo_1b_ab_apply _ _ u v).trans ?_
    exact congrFun (shapeCast_self x8 _) _

/-- The output block at (r, u, v): encoder row `r` projected through the upper joint weights, plus the scratch's
    entry (u, v). -/
theorem pay2_apply (x0 : Vec Ideal S1x32x512 .f32) (x1 : Vec Ideal S512x512 .bf16) (x2 : Vec Ideal S1x512 .f32)
    (x3 : Vec Ideal S512x1024 .bf16) (xs : Vec Ideal S1x64x1024 .f32) (z : Fin 1) (r : Fin 32) (u : Fin 64) (v : Fin 1024) :
    k0_pay2 (F := Ideal) x0 x1 x2 x3 xs (ix4 z r u v)
      = JointSpec.proj (fun d => x0 (ix3 (0 : Fin 1) r d)) x1 x2 x3 v + xs (ix3 (0 : Fin 1) u v) := by
  unfold k0_pay2
  refine (shapeCast_abc_1abc_apply _ _ z r u v).trans ?_
  refine (addf_apply _ _ _).trans ?_
  refine congrArg₂ (· + ·) ?_ ?_
  · refine (LibOuterAdd.broadcastTo_a1c_abc_apply _ _ r u v).trans ?_
    refine (LibOuterAdd.shapeCast_ac_a1c_apply _ _ r (0 : Fin 1) v).trans ?_
    rw [shapeCast_self x1, shapeCast_self x2, shapeCast_self x3]
    refine (tower_apply _ _ _ _ _ _ _ _ r v).trans ?_
    congr 1
    funext d
    exact shapeCast_1ab_ab_apply x0 _ r d
  · refine (LibOuterAdd.broadcastTo_1bc_abc_apply _ _ r u v).trans ?_
    exact congrFun (shapeCast_shapeCast xs _ _) _

end Cert.KernelIdeal.Payloads

end
-- ==== Proof.Blocks.lean ====
/-
  Where each window's block sits in its array.

  The grid is 4 batch entries by 8 tiles of 32 encoder rows, walked batch entry by batch entry: point t is tile
  t % 8 of batch entry t / 8. The encoder input's block at t is rows 32 (t % 8) .. 32 (t % 8) + 31 of batch entry
  t / 8; the decoder input's block is the whole 64 x 512 slab of batch entry t / 8; the seven weight and bias
  operands are staged whole (their block is the array); the output's block is rows 32 (t % 8) .. of batch entry
  t / 8, all 64 x 1024 of it.
-/
import proofs.«116106_j21492016349402_2_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The printed index maps, decided once over the 32 points. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 8 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 4) = t.val / 8 ∧ win0_9.index t (1 : Fin 4) = t.val % 8
    ∧ win0_9.index t (2 : Fin 4) = 0 ∧ win0_9.index t (3 : Fin 4) = 0 :=
  (by decide +kernel : ∀ t : Fin grid0.N, _)

/-- The encoder input's block at point `t`, row `r`: row `32 (t % 8) + r` of batch entry `t / 8`. -/
theorem iblk0_apply (c : Dev nD) (t : Fin cfg0.N) (r : Fin 32) (d : Fin 512) (b : Fin 4) (row : Fin 256)
    (hb : b.val = t.val / 8) (hr : row.val = 32 * (t.val % 8) + r.val) :
    (iblk m c 0 t : Vec F S1x32x512 .f32) (ix3 (0 : Fin 1) r d) = V m c main_arg0 (ix3 b row d) := by
  obtain ⟨e0, e1, e2, -⟩ := idx_facts t
  show V m c main_arg0 (((cfg0.win 0).blk t).view.emb (ix3 (0 : Fin 1) r d)) = _
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 32 + 1 * r.val = row.val; omega
  | ⟨2, _⟩ => show win0_0.index t (2 : Fin 3) * 512 + 1 * d.val = d.val; omega

/-- The decoder input's block at point `t`: the slab of batch entry `t / 8`. -/
theorem iblk4_apply (c : Dev nD) (t : Fin cfg0.N) (u : Fin 64) (d : Fin 512) (b : Fin 4) (hb : b.val = t.val / 8) :
    (iblk m c 4 t : Vec F S1x64x512 .f32) (ix3 (0 : Fin 1) u d) = V m c main_arg1 (ix3 b u d) := by
  obtain ⟨-, -, -, -, -, -, -, -, -, e0, e1, e2, -⟩ := idx_facts t
  show V m c main_arg1 (((cfg0.win 4).blk t).view.emb (ix3 (0 : Fin 1) u d)) = _
  refine congrArg (V m c main_arg1) (funext fun a => Fin.ext ?_)
  match a with
  | ⟨0, _⟩ => show win0_4.index t (0 : Fin 3) * 1 + 1 * 0 = b.val; omega
  | ⟨1, _⟩ => show win0_4.index t (1 : Fin 3) * 64 + 1 * u.val = u.val; omega
  | ⟨2, _⟩ => show win0_4.index t (2 : Fin 3) * 512 + 1 * d.val = d.val; omega

/-- The encoder weights are staged whole. -/
theorem iblk1_eq (c : Dev nD) (t : Fin cfg0.N) : (iblk m c 1 t : Vec F S512x512 .bf16) = V m c main_v4 := by
  obtain ⟨-, -, -, e0, e1, -⟩ := idx_facts t
  funext y
  show V m c main_v4 (((cfg0.win 1).blk t).view.emb y) = _
  refine congrArg (V m c main_v4) (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- The encoder bias row is staged whole. -/
theorem iblk2_eq (c : Dev nD) (t : Fin cfg0.N) : (iblk m c 2 t : Vec F S1x512 .f32) = V m c main_v6 := by
  obtain ⟨-, -, -, -, -, e0, e1, -⟩ := idx_facts t
  funext y
  show V m c main_v6 (((cfg0.win 2).blk t).view.emb y) = _
  refine congrArg (V m c main_v6) (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- The upper joint weights are staged whole. -/
theorem iblk3_eq (c : Dev nD) (t : Fin cfg0.N) : (iblk m c 3 t : Vec F S512x1024 .bf16) = V m c main_v1 := by
  obtain ⟨-, -, -, -, -, -, -, e0, e1, -⟩ := idx_facts t
  funext y
  show V m c main_v1 (((cfg0.win 3).blk t).view.emb y) = _
  refine congrArg (V m c main_v1) (funext fun a => Fin.ext ?_)
  match a with
  | ⟨0, _⟩ => show win0_3.index t (0 : Fin 2) * 512 + 1 * (y 0).val = (y 0).val; omega
  | ⟨1, _⟩ => show win0_3.index t (1 : Fin 2) * 1024 + 1 * (y 1).val = (y 1).val; omega

/-- The decoder weights are staged whole. -/
theorem iblk5_eq (c : Dev nD) (t : Fin cfg0.N) : (iblk m c 5 t : Vec F S512x512 .bf16) = V m c main_v5 := by
  obtain ⟨-, -, -, -, -, -, -, -, -, -, -, -, e0, e1, -⟩ := idx_facts t
  funext y
  show V m c main_v5 (((cfg0.win 5).blk t).view.emb y) = _
  refine congrArg (V m c main_v5) (funext fun a => Fin.ext ?_)
  match a with
  | ⟨0, _⟩ => show win0_5.index t (0 : Fin 2) * 512 + 1 * (y 0).val = (y 0).val; omega
  | ⟨1, _⟩ => show win0_5.index t (1 : Fin 2) * 512 + 1 * (y 1).val = (y 1).val; omega

/-- The decoder bias row is staged whole. -/
theorem iblk6_eq (c : Dev nD) (t : Fin cfg0.N) : (iblk m c 6 t : Vec F S1x512 .f32) = V m c main_v7 := by
  obtain ⟨-, -, -, -, -, -, -, -, -, -, -, -, -, -, e0, e1, -⟩ := idx_facts t
  funext y
  show V m c main_v7 (((cfg0.win 6).blk t).view.emb y) = _
  refine congrArg (V m c main_v7) (funext fun a => Fin.ext ?_)
  match a with
  | ⟨0, _⟩ => show win0_6.index t (0 : Fin 2) * 1 + 1 * (y 0).val = (y 0).val; omega
  | ⟨1, _⟩ => show win0_6.index t (1 : Fin 2) * 512 + 1 * (y 1).val = (y 1).val; omega

/-- The lower joint weights are staged whole. -/
theorem iblk7_eq (c : Dev nD) (t : Fin cfg0.N) : (iblk m c 7 t : Vec F S512x1024 .bf16) = V m c main_v3 := by
  obtain ⟨-, -, -, -, -, -, -, -, -, -, -, -, -, -, -, -, e0, e1, -⟩ := idx_facts t
  funext y
  show V m c main_v3 (((cfg0.win 7).blk t).view.emb y) = _
  refine congrArg (V m c main_v3) (funext fun a => Fin.ext ?_)
  match a with
  | ⟨0, _⟩ => show win0_7.index t (0 : Fin 2) * 512 + 1 * (y 0).val = (y 0).val; omega
  | ⟨1, _⟩ => show win0_7.index t (1 : Fin 2) * 1024 + 1 * (y 1).val = (y 1).val; omega

/-- The joint bias row is staged whole. -/
theorem iblk8_eq (c : Dev nD) (t : Fin cfg0.N) : (iblk m c 8 t : Vec F S1x1024 .f32) = V m c main_v8 := by
  obtain ⟨-, -, -, -, -, -, -, -, -, -, -, -, -, -, -, -, -, -, e0, e1, -⟩ := idx_facts t
  funext y
  show V m c main_v8 (((cfg0.win 8).blk t).view.emb y) = _
  refine congrArg (V m c main_v8) (funext fun a => Fin.ext ?_)
  match a with
  | ⟨0, _⟩ => show win0_8.index t (0 : Fin 2) * 1 + 1 * (y 0).val = (y 0).val; omega
  | ⟨1, _⟩ => show win0_8.index t (1 : Fin 2) * 1024 + 1 * (y 1).val = (y 1).val; omega

end Cert.KernelIdeal.Blocks

end
-- ==== Proof.Arrays.lean ====
/-
  What the region finds in the operand arrays the host prepared, as functions of the network's eight arrays.

  Before the call the host narrows the three weight matrices to the short float format, lays each bias vector out as a
  one-row matrix, and cuts the joint weights into their upper and lower 512 rows. On the extended reals the
  narrowing is the identity, so the prepared operands are: the weights themselves, the bias vectors as rows, and
  the two halves of the joint weights.
-/
import proofs.«116106_j21492016349402_2_alg».proof.Proof.Gen.KernelIdeal.Frame
import proofs.«116106_j21492016349402_2_alg».proof.Proof.JointSpec
import Idealize.ShloMosaic.Lib.StableHlo.Run
import Idealize.ShloMosaic.Lib.ValueLayout
import Idealize.ShloMosaic.Lib.Pipeline.Value

noncomputable section

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The encoder weights as staged: the encoder weights. -/
theorem V_v4 (c : Dev nD) : (V m c main_v4 : S512x512.Idx → EReal) = m ((c : Thread nD τ).loc main_arg2) := by
  have e : (V m c main_v4 : S512x512.Idx → EReal) = truncf (F := Ideal) (s := S512x512) (φ := .f32) .bf16 (m ((c : Thread nD τ).loc main_arg2)) bitsLt_bf16_f32 := by
    dsimp only [V, hostOps0]; after_results
  rw [e]; rfl

/-- The decoder weights as staged: the decoder weights. -/
theorem V_v5 (c : Dev nD) : (V m c main_v5 : S512x512.Idx → EReal) = m ((c : Thread nD τ).loc main_arg4) := by
  have e : (V m c main_v5 : S512x512.Idx → EReal) = truncf (F := Ideal) (s := S512x512) (φ := .f32) .bf16 (m ((c : Thread nD τ).loc main_arg4)) bitsLt_bf16_f32 := by
    dsimp only [V, hostOps0]; after_results
  rw [e]; rfl

/-- The encoder bias as staged: the bias vector as a row. -/
theorem V_v6 (c : Dev nD) : (V m c main_v6 : S1x512.Idx → EReal) = JointSpec.asRow (m ((c : Thread nD τ).loc main_arg3)) := by
  have e : (V m c main_v6 : S1x512.Idx → EReal) = shapeCast S1x512 (m ((c : Thread nD τ).loc main_arg3)) shapeCasts_S512_S1x512 := by
    dsimp only [V, hostOps0]; after_results; rfl
  rw [e]
  funext i
  obtain ⟨u, k, rfl⟩ : ∃ (u : Fin 1) (k : Fin 512), i = ix2 u k := ⟨i 0, i 1, eq_ix2 i⟩
  exact shapeCast_a_1a_apply _ _ u k

/-- The decoder bias as staged: the bias vector as a row. -/
theorem V_v7 (c : Dev nD) : (V m c main_v7 : S1x512.Idx → EReal) = JointSpec.asRow (m ((c : Thread nD τ).loc main_arg5)) := by
  have e : (V m c main_v7 : S1x512.Idx → EReal) = shapeCast S1x512 (m ((c : Thread nD τ).loc main_arg5)) shapeCasts_S512_S1x512 := by
    dsimp only [V, hostOps0]; after_results; rfl
  rw [e]
  funext i
  obtain ⟨u, k, rfl⟩ : ∃ (u : Fin 1) (k : Fin 512), i = ix2 u k := ⟨i 0, i 1, eq_ix2 i⟩
  exact shapeCast_a_1a_apply _ _ u k

/-- The joint bias as staged: the bias vector as a row. -/
theorem V_v8 (c : Dev nD) : (V m c main_v8 : S1x1024.Idx → EReal) = JointSpec.asRow (m ((c : Thread nD τ).loc main_arg7)) := by
  have e : (V m c main_v8 : S1x1024.Idx → EReal) = shapeCast S1x1024 (m ((c : Thread nD τ).loc main_arg7)) shapeCasts_S1024_S1x1024 := by
    dsimp only [V, hostOps0]; after_results; rfl
  rw [e]
  funext i
  obtain ⟨u, k, rfl⟩ : ∃ (u : Fin 1) (k : Fin 1024), i = ix2 u k := ⟨i 0, i 1, eq_ix2 i⟩
  exact shapeCast_a_1a_apply _ _ u k

/-- The upper joint weights as staged: rows 0 to 511 of the joint weights. -/
theorem V_v1 (c : Dev nD) : (V m c main_v1 : S512x1024.Idx → EReal) = JointSpec.upper (m ((c : Thread nD τ).loc main_arg6)) := by
  have e : (V m c main_v1 : S512x1024.Idx → EReal)
      = truncf (F := Ideal) (s := S512x1024) (φ := .f32) .bf16 (extractStridedSlice (s := S1024x1024) S512x1024 ![0, 0] (m ((c : Thread nD τ).loc main_arg6)) slices_S1024x1024_S512x1024_0_0) bitsLt_bf16_f32 := by
    dsimp only [V, hostOps0]; after_results
  rw [e]
  funext i
  obtain ⟨k, v, rfl⟩ : ∃ (k : Fin 512) (v : Fin 1024), i = ix2 k v := ⟨i 0, i 1, eq_ix2 i⟩
  exact slice2_axis0_apply 0 (m ((c : Thread nD τ).loc main_arg6)) slices_S1024x1024_S512x1024_0_0 k v (JointSpec.lo k) (by show k.val = 0 + k.val; omega)

/-- The lower joint weights as staged: rows 512 to 1023 of the joint weights. -/
theorem V_v3 (c : Dev nD) : (V m c main_v3 : S512x1024.Idx → EReal) = JointSpec.lower (m ((c : Thread nD τ).loc main_arg6)) := by
  have e : (V m c main_v3 : S512x1024.Idx → EReal)
      = truncf (F := Ideal) (s := S512x1024) (φ := .f32) .bf16 (extractStridedSlice (s := S1024x1024) S512x1024 ![512, 0] (m ((c : Thread nD τ).loc main_arg6)) slices_S1024x1024_S512x1024_512_0) bitsLt_bf16_f32 := by
    dsimp only [V, hostOps0]; after_results
  rw [e]
  funext i
  obtain ⟨k, v, rfl⟩ : ∃ (k : Fin 512) (v : Fin 1024), i = ix2 k v := ⟨i 0, i 1, eq_ix2 i⟩
  exact slice2_axis0_apply 512 (m ((c : Thread nD τ).loc main_arg6)) slices_S1024x1024_S512x1024_512_0 k v (JointSpec.hi k) rfl

end Cert.KernelIdeal.Arrays

end
-- ==== Proof.KernelValue.lean ====
/-
  The kernel's result array, entry by entry.

  After any point of batch entry b the carried scratch holds the kept slab of batch entry b: the first point of the
  batch entry stores it, and the other seven only read it (induction on the point). So at every point the output block
  is, at (r, u, v), encoder row 32 (t % 8) + r of batch entry t / 8 projected through the upper joint weights, plus
  the kept slab's entry (u, v) — the point's block of one whole-array function. The 32 blocks tile the output array
  (entry (b, t', u, v) lies in the block of point 8 b + t' / 32), so after the run the array is that function.
-/
import proofs.«116106_j21492016349402_2_alg».proof.Proof.Gen.KernelIdeal.Value
import proofs.«116106_j21492016349402_2_alg».proof.Proof.Pieces
import proofs.«116106_j21492016349402_2_alg».proof.Proof.Payloads
import proofs.«116106_j21492016349402_2_alg».proof.Proof.Blocks
import proofs.«116106_j21492016349402_2_alg».proof.Proof.Arrays

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The kept slab of batch entry `b`, of the arrays as the region finds them. -/
def keptV (c : Dev nD) (b : Fin 4) (u : Fin 64) (v : Fin 1024) : EReal :=
  JointSpec.kept (V m c main_arg1) (V m c main_v5) (V m c main_v7) (V m c main_v3) (V m c main_v8) b u v

/-- The output array, of the arrays as the region finds them. -/
def outV (c : Dev nD) : S4x256x64x1024.Idx → EReal :=
  JointSpec.joint (V m c main_arg0) (V m c main_v4) (V m c main_v6) (V m c main_v1)
    (V m c main_arg1) (V m c main_v5) (V m c main_v7) (V m c main_v3) (V m c main_v8)

/-- The slab the first point of a batch entry stores is the kept slab of that batch entry. -/
theorem slab_apply (c : Dev nD) (t : Fin cfg0.N) (z : Fin 1) (u : Fin 64) (v : Fin 1024) (b : Fin 4) (hb : b.val = t.val / 8) :
    k0_pay1 (F := Ideal) (iblk m c 4 t) (iblk m c 5 t) (iblk m c 6 t) (iblk m c 7 t) (iblk m c 8 t) (ix3 z u v) = keptV m c b u v := by
  refine (Payloads.pay1_apply (iblk m c 4 t) (iblk m c 5 t) (iblk m c 6 t) (iblk m c 7 t) (iblk m c 8 t) z u v).trans ?_
  rw [Blocks.iblk5_eq, Blocks.iblk6_eq, Blocks.iblk7_eq, Blocks.iblk8_eq]
  have e : (fun d => (iblk m c 4 t : Vec Ideal S1x64x512 .f32) (ix3 (0 : Fin 1) u d)) = fun d => V m c main_arg1 (ix3 b u d) :=
    funext fun d => Blocks.iblk4_apply m c t u d b hb
  rw [e]
  rfl

/-- After point `n` the carried scratch holds the kept slab of batch entry `n / 8`. -/
theorem scratch_eq (c : Dev nD) : ∀ (n : ℕ) (h : n < cfg0.N) (z : Fin 1) (u : Fin 64) (v : Fin 1024) (b : Fin 4),
    b.val = n / 8 → (outsAt0 m c n h).2 (ix3 z u v) = keptV m c b u v := by
  intro n
  induction n with
  | zero =>
    intro h z u v b hb
    rw [outsAt0_A m c ⟨0, h⟩ rfl]
    dsimp only
    rw [Pieces.sout_A]
    exact slab_apply m c ⟨0, h⟩ z u v b hb
  | succ n ih =>
    intro h z u v b hb
    by_cases h0 : (n + 1) % 8 = 0
    · rw [outsAt0_A m c ⟨n + 1, h⟩ h0]
      dsimp only
      rw [Pieces.sout_A]
      exact slab_apply m c ⟨n + 1, h⟩ z u v b hb
    · rw [outsAt0_B m c ⟨n + 1, h⟩ h0]
      dsimp only
      unfold sout0_B_0
      exact ih _ z u v b (by omega)

/-- At every point the output buffer ends at the output block of the point's encoder-side blocks and what the scratch
    holds after the point. -/
theorem out_eq (c : Dev nD) (t : Fin cfg0.N) :
    (outsAt0 m c t.val t.isLt).1
      = k0_pay2 (iblk m c 0 t) (iblk m c 1 t) (iblk m c 2 t) (iblk m c 3 t) (outsAt0 m c t.val t.isLt).2 := by
  by_cases h0 : t.val % 8 = 0
  · rw [outsAt0_A m c t h0]
    dsimp only
    rw [Pieces.out_A, Pieces.sout_A]
  · rw [outsAt0_B m c t h0]
    dsimp only
    rw [Pieces.out_B]
    rfl

/-- The output buffer after point `t`, at (r, u, v): the output array's entry (t / 8, 32 (t % 8) + r, u, v). -/
theorem block_apply (c : Dev nD) (t : Fin cfg0.N) (z : Fin 1) (r : Fin 32) (u : Fin 64) (v : Fin 1024) (b : Fin 4) (row : Fin 256)
    (hb : b.val = t.val / 8) (hr : row.val = 32 * (t.val % 8) + r.val) :
    (outsAt0 m c t.val t.isLt).1 (ix4 z r u v) = outV m c (ix4 b row u v) := by
  rw [out_eq]
  refine (Payloads.pay2_apply (iblk m c 0 t) (iblk m c 1 t) (iblk m c 2 t) (iblk m c 3 t) (outsAt0 m c t.val t.isLt).2 z r u v).trans ?_
  rw [scratch_eq m c t.val t.isLt 0 u v b hb, Blocks.iblk1_eq, Blocks.iblk2_eq, Blocks.iblk3_eq]
  have e : (fun d => (iblk m c 0 t : Vec Ideal S1x32x512 .f32) (ix3 (0 : Fin 1) r d)) = fun d => V m c main_arg0 (ix3 b row d) :=
    funext fun d => Blocks.iblk0_apply m c t r d b row hb hr
  rw [e]
  rfl

/-- What point `t` writes back is its block of the output array. -/
theorem flushed_eq (c : Dev nD) (t : Fin cfg0.N) :
    (dats m 0 c).flushed 9 t = ((cfg0.win 9).blk t).view.read (Elt Ideal) (outV m c) := by
  rw [Value.flushed9]
  obtain ⟨-, -, -, -, -, -, -, -, -, -, -, -, -, -, -, -, -, -, -, -, e0, e1, e2, e3⟩ := Blocks.idx_facts t
  have hN : cfg0.N = 32 := N_0
  have ht := t.isLt
  funext j
  obtain ⟨z, r, u, v, rfl⟩ : ∃ (z : Fin 1) (r : Fin 32) (u : Fin 64) (v : Fin 1024), j = ix4 z r u v :=
    ⟨j 0, j 1, j 2, j 3, eq_ix4 j⟩
  have hb : t.val / 8 < 4 := by omega
  have hr : 32 * (t.val % 8) + r.val < 256 := by omega
  show (outsAt0 m c t.val t.isLt).1 (ix4 z r u v) = outV m c (((cfg0.win 9).blk t).view.emb (ix4 z r u v))
  rw [block_apply m c t z r u v ⟨t.val / 8, hb⟩ ⟨32 * (t.val % 8) + r.val, hr⟩ rfl rfl]
  refine congrArg (outV m c) (funext fun a => Fin.ext ?_)
  match a with
  | ⟨0, _⟩ => show t.val / 8 = win0_9.index t (0 : Fin 4) * 1 + 1 * z.val; omega
  | ⟨1, _⟩ => show 32 * (t.val % 8) + r.val = win0_9.index t (1 : Fin 4) * 32 + 1 * r.val; omega
  | ⟨2, _⟩ => show u.val = win0_9.index t (2 : Fin 4) * 64 + 1 * u.val; omega
  | ⟨3, _⟩ => show v.val = win0_9.index t (3 : Fin 4) * 1024 + 1 * v.val; omega

/-- An index of the output array is in point `t`'s block iff each coordinate is in the block's range on its axis. -/
theorem mem_blk (t : Fin cfg0.N) (i : S4x256x64x1024.Idx) :
    i ∈ ((cfg0.win 9).blk t).view.set ↔ ∀ a : Fin 4, win0_9.index t a * S1x32x64x1024.size a ≤ (i a).val
      ∧ (i a).val < win0_9.index t a * S1x32x64x1024.size a + S1x32x64x1024.size a := by
  show i ∈ ((View.whole main_v9).slice (win0_9.rect t)).set ↔ _
  rw [View.set_slice_whole, Rect.mem_set_unit]
  exact Iff.rfl

/-- The blocks tile the output array: entry (b, t', u, v) is in the block of point 8 b + t' / 32. -/
theorem cover (i : S4x256x64x1024.Idx) :
    ∃ t : Fin cfg0.N, (cfg0.win 9).flush t = true ∧ i ∈ ((cfg0.win 9).blk t).view.set := by
  have hN : cfg0.N = 32 := N_0
  have h0 : (i 0).val < 4 := (i 0).isLt
  have h1 : (i 1).val < 256 := (i 1).isLt
  have h2 : (i 2).val < 64 := (i 2).isLt
  have h3 : (i 3).val < 1024 := (i 3).isLt
  have htN : (i 0).val * 8 + (i 1).val / 32 < cfg0.N := by omega
  obtain ⟨-, -, -, -, -, -, -, -, -, -, -, -, -, -, -, -, -, -, -, -, e0, e1, e2, e3⟩ :=
    Blocks.idx_facts (⟨(i 0).val * 8 + (i 1).val / 32, htN⟩ : Fin cfg0.N)
  refine ⟨⟨(i 0).val * 8 + (i 1).val / 32, htN⟩, flush0_9 _, ?_⟩
  rw [mem_blk]
  intro a
  dsimp only at e0 e1 e2 e3
  match a with
  | ⟨0, _⟩ =>
    show win0_9.index ⟨(i 0).val * 8 + (i 1).val / 32, htN⟩ (0 : Fin 4) * 1 ≤ (i 0).val
      ∧ (i 0).val < win0_9.index ⟨(i 0).val * 8 + (i 1).val / 32, htN⟩ (0 : Fin 4) * 1 + 1
    omega
  | ⟨1, _⟩ =>
    show win0_9.index ⟨(i 0).val * 8 + (i 1).val / 32, htN⟩ (1 : Fin 4) * 32 ≤ (i 1).val
      ∧ (i 1).val < win0_9.index ⟨(i 0).val * 8 + (i 1).val / 32, htN⟩ (1 : Fin 4) * 32 + 32
    omega
  | ⟨2, _⟩ =>
    show win0_9.index ⟨(i 0).val * 8 + (i 1).val / 32, htN⟩ (2 : Fin 4) * 64 ≤ (i 2).val
      ∧ (i 2).val < win0_9.index ⟨(i 0).val * 8 + (i 1).val / 32, htN⟩ (2 : Fin 4) * 64 + 64
    omega
  | ⟨3, _⟩ =>
    show win0_9.index ⟨(i 0).val * 8 + (i 1).val / 32, htN⟩ (3 : Fin 4) * 1024 ≤ (i 3).val
      ∧ (i 3).val < win0_9.index ⟨(i 0).val * 8 + (i 1).val / 32, htN⟩ (3 : Fin 4) * 1024 + 1024
    omega

/-- After the run the output array is the output function of the arrays as the region finds them. -/
theorem final (c : Dev nD) : (dats m 0 c).arrAt 9 cfg0.N = outV m c :=
  (dats m 0 c).arrAt_eq_of_cover 9 (outV m c) (fun t _ => flushed_eq m c t) cover

/-- In terms of the network's eight arrays. -/
theorem outV_eq (c : Dev nD) : outV m c
    = JointSpec.jointOf (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  unfold outV JointSpec.jointOf
  rw [V_main_arg0, V_main_arg1, Arrays.V_v4, Arrays.V_v6, Arrays.V_v1, Arrays.V_v5, Arrays.V_v7, Arrays.V_v3, Arrays.V_v8]

/-- The run, read: the result array at the output function of the arguments, the arguments unchanged. -/
theorem run : θ_run defs (onTc (τ := τ) (main (F := Ideal))) ⟨m, fun _ => 0, ρ⟩ fun r => ∀ c : Dev nD,
      r.2.mem ((c : Thread nD τ).loc main_v9)
        = JointSpec.jointOf (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final m c).trans (outV_eq m c)), (h c).2⟩)
    (Value.run_blocks m ρ)

end Cert.KernelIdeal.KernelValue

end
-- ==== Proof.RefValue.lean ====
/-
  The reference's result, entry by entry, is the same function of the eight arrays.

  The reference forms the encoder's hidden rows (f . We + be) and the decoder's (g . Wd + bd), repeats the first
  over the decoder positions and the second over the encoder positions, joins them along the feature axis into rows
  of 1024, applies tanh, multiplies by the whole joint matrix and adds the joint bias. Position c < 512 of a joined
  row is hidden feature c of the encoder row, position 512 + c hidden feature c of the decoder row; so the one sum
  over 1024 positions is the two half sums, the first against the upper half of the joint weights and the second
  against the lower half, and the bias joins the second by associativity.
-/
import proofs.«116106_j21492016349402_2_alg».proof.Proof.Gen.ReferenceIdeal.Read
import proofs.«116106_j21492016349402_2_alg».proof.Proof.JointSpec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The encoder's hidden rows: entry (b, t, c) is hidden feature `c` of encoder row (b, t). -/
theorem enc_apply (x0 : (⟨S4x256x512, .f32⟩ : BufTy).Contents (Elt Ideal)) (x2 : (⟨S512x512, .f32⟩ : BufTy).Contents (Elt Ideal))
    (x3 : (⟨S512, .f32⟩ : BufTy).Contents (Elt Ideal)) (b : Fin 4) (t : Fin 256) (c : Fin 512) :
    val_main_v3 (F := Ideal) x0 x2 x3 (ix3 b t c) = JointSpec.hidden (fun d => x0 (ix3 b t d)) x2 (JointSpec.asRow x3) c := by
  have el : ∀ k, lidx_main_v0 (ix3 b t c) k = ix3 b t k := fun k => funext fun a => Fin.ext (by
    match a with | ⟨0, _⟩ => rfl | ⟨1, _⟩ => rfl | ⟨2, _⟩ => rfl)
  have er : ∀ k, ridx_main_v0 (ix3 b t c) k = ix2 k c := fun k => funext fun a => Fin.ext (by
    match a with | ⟨0, _⟩ => rfl | ⟨1, _⟩ => rfl)
  have eb : idx_main_v1 (idx_main_v2 (ix3 b t c)) = ix1 c := funext fun a => Fin.ext (by
    match a with | ⟨0, _⟩ => rfl)
  rw [val_main_v3_apply, val_main_v0_apply, val_main_v2_apply, val_main_v1_apply]
  simp only [el, er, eb]
  rfl

/-- The decoder's hidden rows: entry (b, u, c) is hidden feature `c` of decoder row (b, u). -/
theorem dec_apply (x1 : (⟨S4x64x512, .f32⟩ : BufTy).Contents (Elt Ideal)) (x4 : (⟨S512x512, .f32⟩ : BufTy).Contents (Elt Ideal))
    (x5 : (⟨S512, .f32⟩ : BufTy).Contents (Elt Ideal)) (b : Fin 4) (u : Fin 64) (c : Fin 512) :
    val_main_v7 (F := Ideal) x1 x4 x5 (ix3 b u c) = JointSpec.hidden (fun d => x1 (ix3 b u d)) x4 (JointSpec.asRow x5) c := by
  have el : ∀ k, lidx_main_v4 (ix3 b u c) k = ix3 b u k := fun k => funext fun a => Fin.ext (by
    match a with | ⟨0, _⟩ => rfl | ⟨1, _⟩ => rfl | ⟨2, _⟩ => rfl)
  have er : ∀ k, ridx_main_v4 (ix3 b u c) k = ix2 k c := fun k => funext fun a => Fin.ext (by
    match a with | ⟨0, _⟩ => rfl | ⟨1, _⟩ => rfl)
  have eb : idx_main_v5 (idx_main_v6 (ix3 b u c)) = ix1 c := funext fun a => Fin.ext (by
    match a with | ⟨0, _⟩ => rfl)
  rw [val_main_v7_apply, val_main_v4_apply, val_main_v6_apply, val_main_v5_apply]
  simp only [el, er, eb]
  rfl

/-- Position `c` of the first half of a joined row: hidden feature `c` of the encoder row. -/
theorem joined_lo (x0 : (⟨S4x256x512, .f32⟩ : BufTy).Contents (Elt Ideal)) (x1 : (⟨S4x64x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (b : Fin 4) (t : Fin 256) (u : Fin 64) (c : Fin 512) :
    val_main_v12 (F := Ideal) x0 x1 x2 x3 x4 x5 (ix4 b t u (JointSpec.lo c))
      = JointSpec.hidden (fun d => x0 (ix3 b t d)) x2 (JointSpec.asRow x3) c := by
  unfold val_main_v12
  rw [concatenate_pair_apply_left (t := S4x256x64x1024) (s₁ := S4x256x64x512) (s₂ := S4x256x64x512) (3 : Fin 4) _ _ _ (ix4 b t u (JointSpec.lo c)) rfl (ix4 b t u c : S4x256x64x512.Idx) (fun a => by
    match a with | ⟨0, _⟩ => rfl | ⟨1, _⟩ => rfl | ⟨2, _⟩ => rfl | ⟨3, _⟩ => rfl)]
  have e : idx_main_v8 (idx_main_v9 (ix4 b t u c)) = ix3 b t c := funext fun a => Fin.ext (by
    match a with | ⟨0, _⟩ => rfl | ⟨1, _⟩ => rfl | ⟨2, _⟩ => rfl)
  rw [val_main_v9_apply, val_main_v8_apply, e]
  exact enc_apply x0 x2 x3 b t c

/-- Position `512 + c` of a joined row: hidden feature `c` of the decoder row. -/
theorem joined_hi (x0 : (⟨S4x256x512, .f32⟩ : BufTy).Contents (Elt Ideal)) (x1 : (⟨S4x64x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (b : Fin 4) (t : Fin 256) (u : Fin 64) (c : Fin 512) :
    val_main_v12 (F := Ideal) x0 x1 x2 x3 x4 x5 (ix4 b t u (JointSpec.hi c))
      = JointSpec.hidden (fun d => x1 (ix3 b u d)) x4 (JointSpec.asRow x5) c := by
  unfold val_main_v12
  rw [concatenate_pair_apply_right (t := S4x256x64x1024) (s₁ := S4x256x64x512) (s₂ := S4x256x64x512) (3 : Fin 4) _ _ _ (ix4 b t u (JointSpec.hi c)) rfl rfl (ix4 b t u c : S4x256x64x512.Idx) (fun a ha => by
    match a with
    | ⟨0, _⟩ => rfl
    | ⟨1, _⟩ => rfl
    | ⟨2, _⟩ => rfl
    | ⟨3, _⟩ => exact absurd rfl ha) (by show c.val + 512 = 512 + c.val; omega)]
  have e : idx_main_v10 (idx_main_v11 (ix4 b t u c)) = ix3 b u c := funext fun a => Fin.ext (by
    match a with | ⟨0, _⟩ => rfl | ⟨1, _⟩ => rfl | ⟨2, _⟩ => rfl)
  rw [val_main_v11_apply, val_main_v10_apply, e]
  exact dec_apply x1 x4 x5 b u c

/-- The reference's result array is the output function of its eight arguments. -/
theorem ref_eq (x0 : (⟨S4x256x512, .f32⟩ : BufTy).Contents (Elt Ideal)) (x1 : (⟨S4x64x512, .f32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S1024x1024, .f32⟩ : BufTy).Contents (Elt Ideal)) (x7 : (⟨S1024, .f32⟩ : BufTy).Contents (Elt Ideal)) :
    val_main_v17 (F := Ideal) x0 x1 x2 x3 x4 x5 x6 x7 = JointSpec.jointOf x0 x1 x2 x3 x4 x5 x6 x7 := by
  funext i
  obtain ⟨b, t, u, v, rfl⟩ : ∃ (b : Fin 4) (t : Fin 256) (u : Fin 64) (v : Fin 1024), i = ix4 b t u v :=
    ⟨i 0, i 1, i 2, i 3, eq_ix4 i⟩
  have el : ∀ k, lidx_main_v14 (ix4 b t u v) k = ix4 b t u k := fun k => funext fun a => Fin.ext (by
    match a with | ⟨0, _⟩ => rfl | ⟨1, _⟩ => rfl | ⟨2, _⟩ => rfl | ⟨3, _⟩ => rfl)
  have er : ∀ k, ridx_main_v14 (ix4 b t u v) k = ix2 k v := fun k => funext fun a => Fin.ext (by
    match a with | ⟨0, _⟩ => rfl | ⟨1, _⟩ => rfl)
  have eb : idx_main_v15 (idx_main_v16 (ix4 b t u v)) = ix1 v := funext fun a => Fin.ext (by
    match a with | ⟨0, _⟩ => rfl)
  rw [val_main_v17_apply, val_main_v14_apply, val_main_v16_apply, val_main_v15_apply]
  simp only [el, er, eb, val_main_v13_apply]
  show (∑ k : Fin 1024, Ideal.tanh (val_main_v12 (F := Ideal) x0 x1 x2 x3 x4 x5 (ix4 b t u k)) * x6 (ix2 k v)) + x7 (ix1 v) = _
  rw [JointSpec.joined_sum (fun k => val_main_v12 (F := Ideal) x0 x1 x2 x3 x4 x5 (ix4 b t u k))
    (JointSpec.hidden (fun d => x0 (ix3 b t d)) x2 (JointSpec.asRow x3))
    (JointSpec.hidden (fun d => x1 (ix3 b u d)) x4 (JointSpec.asRow x5))
    (fun k => x6 (ix2 k v)) (x7 (ix1 v))
    (fun c => joined_lo x0 x1 x2 x3 x4 x5 b t u c) (fun c => joined_hi x0 x1 x2 x3 x4 x5 b t u c)]
  rfl

end Cert.ReferenceIdeal.RefValue

end
-- ==== Proof.lean ====
/-
  A joint network: encoder rows f (b, t, :) and decoder rows g (b, u, :) are each sent through a 512 x 512 layer with
  bias; the output at (b, t, u, v) is tanh of the two hidden rows laid end to end, through the 1024 x 1024 joint
  weights, plus the joint bias.

  The kernel never forms the joined row. tanh acts entry by entry, so tanh of the joined row is the two tanh'ed rows
  laid end to end, and its product with the joint weights is the encoder half through the upper 512 rows of the
  weights plus the decoder half through the lower 512 rows. The decoder half, with the bias added, depends only on
  (b, u, v): the kernel computes it at the first of the eight 32-row tiles of a batch entry, keeps it in a scratch
  buffer, and adds it to every tile's encoder half.

  On the extended reals the two programs compute one function: a sum over 1024 positions is the sum over its first
  512 plus the sum over its last 512, addition is associative, a matrix product into a zero accumulator is the plain
  sum over the contracted coordinate, and a change of float format is the identity. None of these steps needs the
  inputs to be finite, so the precondition is not used.

  The modules: the output as one function of the eight arrays and the half-split law (JointSpec); the body's two
  stored values read at an index (Payloads); what one run of the body leaves in the scratch and in the output buffer
  (Pieces); where each block sits in its array and what the prepared operands hold (Blocks, Arrays); the scratch's
  contents after every point, by induction, and the output array assembled from its 32 blocks (KernelValue); the
  reference's last stage as the same function (RefValue). The programs' runs and the kernels' frames are the
  generated modules imported below.
-/
import proofs.«116106_j21492016349402_2_alg».proof.Defs
import proofs.«116106_j21492016349402_2_alg».proof.Proof.Gen.Kernel
import proofs.«116106_j21492016349402_2_alg».proof.Proof.Gen.Kernel.Skeleton
import proofs.«116106_j21492016349402_2_alg».proof.Proof.Gen.Kernel.Launch
import proofs.«116106_j21492016349402_2_alg».proof.Proof.Gen.Kernel.Points
import proofs.«116106_j21492016349402_2_alg».proof.Proof.Gen.Kernel.Frame
import proofs.«116106_j21492016349402_2_alg».proof.Proof.Gen.KernelIdeal
import proofs.«116106_j21492016349402_2_alg».proof.Proof.Gen.KernelIdeal.Skeleton
import proofs.«116106_j21492016349402_2_alg».proof.Proof.Gen.KernelIdeal.Launch
import proofs.«116106_j21492016349402_2_alg».proof.Proof.Gen.KernelIdeal.Points
import proofs.«116106_j21492016349402_2_alg».proof.Proof.Gen.KernelIdeal.Frame
import proofs.«116106_j21492016349402_2_alg».proof.Proof.Gen.ReferenceIdeal
import proofs.«116106_j21492016349402_2_alg».proof.Proof.Gen.Pre_finite_inputs
import proofs.«116106_j21492016349402_2_alg».proof.Proof.Gen.KernelIdeal.Value
import proofs.«116106_j21492016349402_2_alg».proof.Proof.Gen.ReferenceIdeal.Run
import proofs.«116106_j21492016349402_2_alg».proof.Proof.Gen.ReferenceIdeal.Read
import proofs.«116106_j21492016349402_2_alg».proof.Proof.KernelValue
import proofs.«116106_j21492016349402_2_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- Both runs end with the result array at the output function of arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v17_eq, Cert.ReferenceIdeal.RefValue.ref_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
